-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256x1 .f32) (main_arg9 : FVec F S1 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256x1 .f32) (main_arg7 : FVec F S1 .f32) (main_arg8 : FVec F S256x1 .f32) (main_arg9 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x1 .f32) (main_arg7 : FVec F S1 .f32) (main_arg8 : FVec F S256x1 .f32) (main_arg9 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S256x128 : Shape := ⟨2, ![256, 128]⟩
abbrev S128 : Shape := ⟨1, ![128]⟩
abbrev S1x128 : Shape := ⟨2, ![1, 128]⟩
abbrev S50000x128 : Shape := ⟨2, ![50000, 128]⟩
abbrev S5000x128 : Shape := ⟨2, ![5000, 128]⟩
abbrev S50000x1 : Shape := ⟨2, ![50000, 1]⟩

abbrev nBuf : Space → Nat
  | .hbm => 104
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S256x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S50000x256, .bf16⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x256, .bf16⟩
  | .hbm, ⟨53, _⟩ => ⟨S850000x256, .f32⟩
  | .hbm, ⟨54, _⟩ => ⟨S850000x1, .f32⟩
  | .hbm, ⟨55, _⟩ => ⟨S850000x256, .f32⟩
  | .hbm, ⟨56, _⟩ => ⟨S850000x256, .f32⟩
  | .hbm, ⟨57, _⟩ => ⟨S_, .f32⟩
  | .hbm, ⟨58, _⟩ => ⟨S50000x256, .f32⟩
  | .hbm, ⟨59, _⟩ => ⟨S850000x1, .i32⟩
  | .hbm, ⟨60, _⟩ => ⟨S50000x256, .f32⟩
  | .hbm, ⟨61, _⟩ => ⟨S1x256, .f32⟩
  | .hbm, ⟨62, _⟩ => ⟨S50000x256, .bf16⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x256, .bf16⟩
  | .hbm, ⟨72, _⟩ => ⟨S850000x256, .f32⟩
  | .hbm, ⟨73, _⟩ => ⟨S850000x1, .f32⟩
  | .hbm, ⟨74, _⟩ => ⟨S850000x256, .f32⟩
  | .hbm, ⟨75, _⟩ => ⟨S850000x256, .f32⟩
  | .hbm, ⟨76, _⟩ => ⟨S_, .f32⟩
  | .hbm, ⟨77, _⟩ => ⟨S50000x256, .f32⟩
  | .hbm, ⟨78, _⟩ => ⟨S850000x1, .i32⟩
  | .hbm, ⟨79, _⟩ => ⟨S50000x256, .f32⟩
  | .hbm, ⟨80, _⟩ => ⟨S_, .f32⟩
  | .hbm, ⟨81, _⟩ => ⟨S256x128, .f32⟩
  | .hbm, ⟨82, _⟩ => ⟨S_, .i32⟩
  | .hbm, ⟨83, _⟩ => ⟨S1, .i32⟩
  | .hbm, ⟨84, _⟩ => ⟨S256x128, .f32⟩
  | .hbm, ⟨85, _⟩ => ⟨S_, .i32⟩
  | .hbm, ⟨86, _⟩ => ⟨S1, .i32⟩
  | .hbm, ⟨87, _⟩ => ⟨S256x128, .f32⟩
  | .hbm, ⟨88, _⟩ => ⟨S_, .f32⟩
  | .hbm, ⟨89, _⟩ => ⟨S128, .f32⟩
  | .hbm, ⟨90, _⟩ => ⟨S_, .f32⟩
  | .hbm, ⟨91, _⟩ => ⟨S_, .i32⟩
  | .hbm, ⟨92, _⟩ => ⟨S1, .i32⟩
  | .hbm, ⟨93, _⟩ => ⟨S128, .f32⟩
  | .hbm, ⟨94, _⟩ => ⟨S_, .f32⟩
  | .hbm, ⟨95, _⟩ => ⟨S_, .i32⟩
  | .hbm, ⟨96, _⟩ => ⟨S1, .i32⟩
  | .hbm, ⟨97, _⟩ => ⟨S128, .f32⟩
  | .hbm, ⟨98, _⟩ => ⟨S1x256, .f32⟩
  | .hbm, ⟨99, _⟩ => ⟨S1x128, .f32⟩
  | .hbm, ⟨100, _⟩ => ⟨S50000x128, .f32⟩
  | .hbm, ⟨101, _⟩ => ⟨S50000x1, .f32⟩
  | .hbm, ⟨102, _⟩ => ⟨S50000, .f32⟩
  | .hbm, ⟨103, _⟩ => ⟨S50000x1, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .bf16⟩
  | .local _ .vmem, ⟨4, _⟩ => ⟨S5000x256, .bf16⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S256x256, .f32⟩
  | .local _ .vmem, ⟨9, _⟩ => ⟨S5000x256, .bf16⟩
  | .local _ .vmem, ⟨10, _⟩ => ⟨S5000x256, .bf16⟩
  | .local _ .vmem, ⟨11, _⟩ => ⟨S5000x256, .f32⟩
  | .local _ .vmem, ⟨12, _⟩ => ⟨S5000x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S5000x256_S5000x256_0_0 : (Rect.unit (s := S5000x256) ![0, 0] S5000x256.size inb_S5000x256_S5000x256_0_0).PackedRows (EltTy.packing .bf16)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S_S256x128 : S_.BroadcastsInDim S256x128 (![] : Fin 0 → Fin S256x128.rank)
  bcast_S_S1 : S_.BroadcastsInDim S1 (![] : Fin 0 → Fin S1.rank)
  bcast_S_S128 : S_.BroadcastsInDim S128 (![] : Fin 0 → Fin S128.rank)
  shapeCasts_S1_S_ : S1.ShapeCasts S_
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S50000x128_S50000x1_0_0 : S50000x128.Slices ![0, 0] S50000x1
  shapeCasts_S50000x1_S50000 : S50000x1.ShapeCasts S50000
  slices_S50000x128_S50000x1_0_1 : S50000x128.Slices ![0, 1] S50000x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S256x128_S1_S256x1_01_n_1_0_wf : ScatterDims.WF S256x128 S1 S256x1 [0, 1] [] [1] 0
  scatter_S128_S1_S__n_0_0_0_wf : ScatterDims.WF S128 S1 S_ [] [0] [0] 0
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .bf16 = 32 ∨ (Rect.block (s := S50000x256) S5000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .bf16 = 32 ∨ (Rect.block (s := S50000x256) S5000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S256x128_S1_S256x1_01_n_1_0 : ScatterDims S256x128 S1 S256x1 where
  updateWindowDims := [0, 1]
  insertedWindowDims := []
  scatterDimsToOperandDims := [1]
  indexVectorDim := 0
  wf := scatter_S256x128_S1_S256x1_01_n_1_0_wf
def scatter_S128_S1_S__n_0_0_0 : ScatterDims S128 S1 S_ where
  updateWindowDims := []
  insertedWindowDims := [0]
  scatterDimsToOperandDims := [0]
  indexVectorDim := 0
  wf := scatter_S128_S1_S__n_0_0_0_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S256x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x256, .f32⟩
  | .hbm, ⟨15, _⟩ => ⟨S50000, .i32⟩
  | .hbm, ⟨16, _⟩ => ⟨S850000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x256, .f32⟩
  | .hbm, ⟨53, _⟩ => ⟨S850000x1, .f32⟩
  | .hbm, ⟨54, _⟩ => ⟨S850000x256, .f32⟩
  | .hbm, ⟨55, _⟩ => ⟨S850000x256, .f32⟩
  | .hbm, ⟨56, _⟩ => ⟨S_, .f32⟩
  | .hbm, ⟨57, _⟩ => ⟨S50000x256, .f32⟩
  | .hbm, ⟨58, _⟩ => ⟨S850000x1, .i32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S50000, .i32⟩
  | .hbm, ⟨68, _⟩ => ⟨S850000, .i32⟩
  | .hbm, ⟨69, _⟩ => ⟨S850000, .i32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S50000, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000x256, .f32⟩
  | .hbm, ⟨105, _⟩ => ⟨S850000x1, .f32⟩
  | .hbm, ⟨106, _⟩ => ⟨S850000x256, .f32⟩
  | .hbm, ⟨107, _⟩ => ⟨S850000x256, .f32⟩
  | .hbm, ⟨108, _⟩ => ⟨S_, .f32⟩
  | .hbm, ⟨109, _⟩ => ⟨S50000x256, .f32⟩
  | .hbm, ⟨110, _⟩ => ⟨S850000x1, .i32⟩
  | .hbm, ⟨111, _⟩ => ⟨S50000x256, .f32⟩
  | .hbm, ⟨112, _⟩ => ⟨S1x256, .f32⟩
  | .hbm, ⟨113, _⟩ => ⟨S50000x256, .f32⟩
  | .hbm, ⟨114, _⟩ => ⟨S50000x256, .f32⟩
  | .hbm, ⟨115, _⟩ => ⟨S_, .f32⟩
  | .hbm, ⟨116, _⟩ => ⟨S50000x256, .f32⟩
  | .hbm, ⟨117, _⟩ => ⟨S50000x256, .f32⟩
  | .hbm, ⟨118, _⟩ => ⟨S50000x1, .f32⟩
  | .hbm, ⟨119, _⟩ => ⟨S1x1, .f32⟩
  | .hbm, ⟨120, _⟩ => ⟨S50000x1, .f32⟩
  | .hbm, ⟨121, _⟩ => ⟨S50000x1, .f32⟩
  | .hbm, ⟨122, _⟩ => ⟨S50000, .f32⟩
  | .hbm, ⟨123, _⟩ => ⟨S50000x1, .f32⟩
  | .hbm, ⟨124, _⟩ => ⟨S1x1, .f32⟩
  | .hbm, ⟨125, _⟩ => ⟨S50000x1, .f32⟩
  | .hbm, ⟨126, _⟩ => ⟨S50000x1, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call1_cst : Ref sig .tc := ⟨.hbm, 115, rfl⟩
abbrev main_call1_v0 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x1_S50000x1_1_0_0_1_n_n_wf : DotDims.WF S50000x256 S256x1 S50000x1 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KernelRun.lean ====
/-
  The idealized kernel's run with its two results named.

  The program is three tiled matrix-product regions among stretches of host operations.  Its buffers at the return
  are a fold through the program: each host stretch applies its operations to the contents before it, each region
  replaces its output array by what its grid points write back.  Here the run is restated so that the two result
  buffers are read off the end of that fold; the later modules evaluate the fold.
-/
import proofs.«114901_j80796924772854_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; each result buffer ends at the fold's contents there,
    and the argument arrays end as launched. -/
theorem run_results : θ_run defs (onTc (τ := τ) (main (F := F))) ⟨m, fun _ => 0, ρ⟩ (fun r => ∀ c : Dev nD,
      r.2.mem ((c.tc : Thread nD τ).loc main_v74) = W7 m ρ c (Proc.devRef .tc main_v74)
      ∧ r.2.mem ((c.tc : Thread nD τ).loc main_v75) = W7 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v74 (by decide)),
       h c _ (mem_uc main_v75 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.Results

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.KRegion0.lean ====
/-
  Region 0: the first linear layer.

  The region tiles the node axis into ten blocks of 5000 rows.  At a grid point the body multiplies its block of
  node features by the whole weight matrix; the changes of float format around the product are the identity on the
  extended reals.  So the rows a point writes back are the corresponding rows of the plain product of the two
  arrays, the blocks cover all 50000 rows, and the region's output array is the product of the node features and the
  weights, entry (n, c) being the sum over k of x (n, k) * w (k, c).
-/
import proofs.«114901_j80796924772854_2_alg».proof.Proof.Gen.KernelIdeal.Frame
import proofs.«114901_j80796924772854_2_alg».proof.Proof.LibMatRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx Idealize.ShloMosaic.MatRows
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product of the node features and the weights, as one array. -/
def prod (x : S50000x256.Idx → EReal) (w : S256x256.Idx → EReal) : S50000x256.Idx → EReal :=
  Host.dotGeneral (F := Ideal) (DotDims.plain 50000 256 256) none (φ₁ := .f32) (φ₂ := .f32) x w

/-- The body's stored value at row p, column q of its block: the row of the feature block against the column of the
    weights. -/
theorem pay_apply (x0 : Vec Ideal S5000x256 .f32) (x1 : Vec Ideal S256x256 .f32) (p : Fin 5000) (q : Fin 256) :
    k0_pay1 x0 x1 (ix2 p q) = ∑ k : Fin 256, x0 (ix2 p k) * x1 (ix2 k q) := by
  unfold k0_pay1
  exact matmul_plain_apply none (truncf .bf16 x0 bitsLt_bf16_f32) (truncf .bf16 x1 bitsLt_bf16_f32) p q

/-- The block indices of the three windows over the grid: the feature and output windows move down the node axis
    with the point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

theorem idx_onto : ∀ q0 : Fin 10, ∃ t : Fin cfg0.N, t.val = q0.val :=
  (by decide +kernel : ∀ q0 : Fin 10, ∃ t : Fin grid0.N, t.val = q0.val)

/-- What point t writes back is block t of the product of the arrays the region finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  obtain ⟨e0, e1, e2, e3, e4, e5, e6⟩ := idx_facts t
  funext j
  obtain ⟨p, q, rfl⟩ : ∃ (p : Fin 5000) (q : Fin 256), j = ix2 p q := ⟨j 0, j 1, eq_ix2 j⟩
  have hP : t.val * 5000 + p.val < 50000 := by have := p.isLt; omega
  have hemb : ((cfg0.win 2).blk t).view.emb (ix2 p q) = ix2 (⟨t.val * 5000 + p.val, hP⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 256 + 1 * q.val = q.val; omega
  show k0_pay1 (iblk0 V c 0 t) (iblk0 V c 1 t) (ix2 p q) = prod (V c main_arg0) (V c main_arg2) (((cfg0.win 2).blk t).view.emb (ix2 p q))
  refine (pay_apply _ _ p q).trans ?_
  rw [hemb]
  unfold prod
  refine Eq.trans ?_ (dotGeneral_plain_apply none _ _ _ q).symm
  refine Finset.sum_congr rfl fun k _ => ?_
  have h0 : iblk0 V c 0 t (ix2 p k) = V c main_arg0 (ix2 (⟨t.val * 5000 + p.val, hP⟩ : Fin 50000) k) := by
    show V c main_arg0 (((cfg0.win 0).blk t).view.emb (ix2 p k)) = _
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 256 + 1 * k.val = k.val; omega
  have h1 : iblk0 V c 1 t (ix2 k q) = V c main_arg2 (ix2 k q) := by
    show V c main_arg2 (((cfg0.win 1).blk t).view.emb (ix2 k q)) = _
    refine congrArg _ ?_
    funext a; apply Fin.ext
    match a with
    | ⟨0, _⟩ => show win0_1.index t (0 : Fin 2) * 256 + 1 * k.val = k.val; omega
    | ⟨1, _⟩ => show win0_1.index t (1 : Fin 2) * 256 + 1 * q.val = q.val; omega
  rw [h0, h1]

/-- An index of the output array lies in point t's block iff each coordinate lies in the block's range. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v27).slice (win0_2.rect t)).set ↔ _
  rw [View.set_slice_whole, Rect.mem_set_unit]
  exact Iff.rfl

/-- Every row lies in the block of the point numbered by the row divided by 5000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 5000, by omega⟩
  have ht' : t.val = (i 0).val / 5000 := ht
  obtain ⟨e0, e1, e2, e3, e4, e5, e6⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The region's output array is the product of the two arrays it finds. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Reg0

end
-- ==== Proof.KRegion1.lean ====
/-
  Region 1: the second linear layer with the first layer's bias and rectifier fused in front.

  At a grid point the body adds the bias row to its 5000-row block of aggregated features, takes the maximum with
  zero, and multiplies by the whole weight matrix.  The bias and the rectifier act entry by entry, so a block of the
  rectified array is the rectified block; hence the rows a point writes back are rows of the product of the whole
  rectified array with the weights, and the ten blocks cover the output.
-/
import proofs.«114901_j80796924772854_2_alg».proof.Proof.Gen.KernelIdeal.Frame
import proofs.«114901_j80796924772854_2_alg».proof.Proof.LibMatRows
import proofs.«114901_j80796924772854_2_alg».proof.Proof.KRegion0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx Idealize.ShloMosaic.MatRows
open Idealize.SL.Sem
open Idealize.ShloMosaic.Pipeline (Dat Cfg Window)

variable (V : (c : Dev nD) → (b : Ref sig .tc) → Buf (Elt Ideal) ((c : Thread nD τ).loc b))

/-- Bias row added to every row, then the maximum with zero, entry by entry. -/
def hidden (a : S50000x256.Idx → EReal) (brow : S1x256.Idx → EReal) : S50000x256.Idx → EReal :=
  fun i => max (a i + brow (ix2 (0 : Fin 1) (⟨(i 1).val, idx2_lt1 i⟩ : Fin 256))) (Scalar.ofBits (F := Ideal) .f32 0x00000000#32)

theorem hidden_apply (a : S50000x256.Idx → EReal) (brow : S1x256.Idx → EReal) (n : Fin 50000) (k : Fin 256) :
    hidden a brow (ix2 n k) = max (a (ix2 n k) + brow (ix2 (0 : Fin 1) k)) (Scalar.ofBits (F := Ideal) .f32 0x00000000#32) := rfl

/-- The rectified array times the weights. -/
def layer (a : S50000x256.Idx → EReal) (brow : S1x256.Idx → EReal) (w : S256x256.Idx → EReal) : S50000x256.Idx → EReal :=
  Reg0.prod (hidden a brow) w

/-- The body's stored value at row p, column q of its block. -/
theorem pay_apply (x0 : Vec Ideal S5000x256 .f32) (x1 : Vec Ideal S1x256 .f32) (x2 : Vec Ideal S256x256 .f32) (p : Fin 5000) (q : Fin 256) :
    k1_pay1 x0 x1 x2 (ix2 p q)
      = ∑ k : Fin 256, max (x0 (ix2 p k) + x1 (ix2 (0 : Fin 1) k)) (Scalar.ofBits (F := Ideal) .f32 0x00000000#32) * x2 (ix2 k q) := by
  unfold k1_pay1
  refine (matmul_plain_apply none _ _ p q).trans ?_
  refine Finset.sum_congr rfl fun k _ => ?_
  refine congrArg (· * x2 (ix2 k q)) ?_
  show max ((shapeCast S5000x256 x0 shapeCasts_S5000x256_S5000x256) (ix2 p k) + (broadcastTo S5000x256 (shapeCast S1x256 x1 shapeCasts_S1x256_S1x256) broadcasts_S1x256_S5000x256) (ix2 p k)) _ = _
  rw [shapeCast_self, shapeCast_self]
  exact congrArg (fun z => max (x0 (ix2 p k) + z) _) (broadcastTo_1b_ab_apply x1 broadcasts_S1x256_S5000x256 p k)

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

theorem idx_onto : ∀ q0 : Fin 10, ∃ t : Fin cfg1.N, t.val = q0.val :=
  (by decide +kernel : ∀ q0 : Fin 10, ∃ t : Fin grid1.N, t.val = q0.val)

/-- What point t writes back is block t of the layer of the arrays the region finds. -/
theorem flushed_eq (c : Dev nD) (t : Fin cfg1.N) :
    (dat1 V c).flushed 3 t = ((cfg1.win 3).blk t).view.read (Elt Ideal) (layer (V c main_v41) (V c main_v42) (V c main_arg4)) := by
  show (cfg1.win 3).cut (grid1.coords t) ((dat1 V c).after 3 t) = _
  rw [after1_3]
  unfold out1_3
  rw [View.canon_unit_zero Reg0.hz]
  simp only [View.ld_unit_zero (S := S5000x256) Reg0.hz, View.ld_unit_zero (S := S256x256) Reg0.hz, View.ld_unit_zero (S := S1x256) Reg0.hz]
  obtain ⟨e0, e1, e2, e3, e4, e5, e6, e7, e8⟩ := idx_facts t
  funext j
  obtain ⟨p, q, rfl⟩ : ∃ (p : Fin 5000) (q : Fin 256), j = ix2 p q := ⟨j 0, j 1, eq_ix2 j⟩
  have hP : t.val * 5000 + p.val < 50000 := by have := p.isLt; omega
  have hemb : ((cfg1.win 3).blk t).view.emb (ix2 p q) = ix2 (⟨t.val * 5000 + p.val, hP⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 256 + 1 * q.val = q.val; omega
  show k1_pay1 (iblk1 V c 0 t) (iblk1 V c 1 t) (iblk1 V c 2 t) (ix2 p q) = layer (V c main_v41) (V c main_v42) (V c main_arg4) (((cfg1.win 3).blk t).view.emb (ix2 p q))
  refine (pay_apply _ _ _ p q).trans ?_
  rw [hemb]
  unfold layer Reg0.prod
  refine Eq.trans ?_ (dotGeneral_plain_apply none _ _ _ q).symm
  refine Finset.sum_congr rfl fun k _ => ?_
  have h0 : iblk1 V c 0 t (ix2 p k) = V c main_v41 (ix2 (⟨t.val * 5000 + p.val, hP⟩ : Fin 50000) k) := by
    show V c main_v41 (((cfg1.win 0).blk t).view.emb (ix2 p k)) = _
    refine congrArg _ ?_
    funext a; apply Fin.ext
    match a with
    | ⟨0, _⟩ => show win1_0.index t (0 : Fin 2) * 5000 + 1 * p.val = t.val * 5000 + p.val; omega
    | ⟨1, _⟩ => show win1_0.index t (1 : Fin 2) * 256 + 1 * k.val = k.val; omega
  have h1 : iblk1 V c 1 t (ix2 (0 : Fin 1) k) = V c main_v42 (ix2 (0 : Fin 1) k) := by
    show V c main_v42 (((cfg1.win 1).blk t).view.emb (ix2 (0 : Fin 1) k)) = _
    refine congrArg _ ?_
    funext a; apply Fin.ext
    match a with
    | ⟨0, _⟩ => show win1_1.index t (0 : Fin 2) * 1 + 1 * 0 = 0; omega
    | ⟨1, _⟩ => show win1_1.index t (1 : Fin 2) * 256 + 1 * k.val = k.val; omega
  have h2 : iblk1 V c 2 t (ix2 k q) = V c main_arg4 (ix2 k q) := by
    show V c main_arg4 (((cfg1.win 2).blk t).view.emb (ix2 k q)) = _
    refine congrArg _ ?_
    funext a; apply Fin.ext
    match a with
    | ⟨0, _⟩ => show win1_2.index t (0 : Fin 2) * 256 + 1 * k.val = k.val; omega
    | ⟨1, _⟩ => show win1_2.index t (1 : Fin 2) * 256 + 1 * q.val = q.val; omega
  rw [h0, h1, h2, hidden_apply]

theorem mem_blk (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v43).slice (win1_3.rect t)).set ↔ _
  rw [View.set_slice_whole, Rect.mem_set_unit]
  exact Iff.rfl

theorem cover (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ := idx_onto ⟨(i 0).val / 5000, by omega⟩
  have ht' : t.val = (i 0).val / 5000 := ht
  obtain ⟨e0, e1, e2, e3, e4, e5, e6, e7, e8⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- The region's output array is the layer of the arrays it finds. -/
theorem final (c : Dev nD) : (dat1 V c).arrAt 3 cfg1.N = layer (V c main_v41) (V c main_v42) (V c main_arg4) :=
  (dat1 V c).arrAt_eq_of_cover 3 (layer (V c main_v41) (V c main_v42) (V c main_arg4)) (fun t _ => flushed_eq V c t) cover

end Cert.KernelIdeal.Reg1

end
-- ==== Proof.KRegion2.lean ====
/-
  Region 2: the two heads, with the second layer's bias and rectifier fused in front and the heads' bias behind.

  At a grid point the body adds the bias row to its 5000-row block of aggregated features, takes the maximum with
  zero, multiplies by the whole 256 x 128 head matrix and adds the head bias row.  Entry (n, q) of the region's
  output is therefore the sum over k of the rectified entry (n, k) times the head matrix's (k, q), plus the head
  bias at q; the ten blocks cover the output.
-/
import proofs.«114901_j80796924772854_2_alg».proof.Proof.Gen.KernelIdeal.Frame
import proofs.«114901_j80796924772854_2_alg».proof.Proof.LibMatRows
import proofs.«114901_j80796924772854_2_alg».proof.Proof.KRegion0
import proofs.«114901_j80796924772854_2_alg».proof.Proof.KRegion1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg2

open Cert.KernelIdeal Cert.KernelIdeal.Gen
open Idealize.ShloMosaic Idealize.ShloMosaic.TcCoe Idealize.ShloMosaic.ValueIdx Idealize.ShloMosaic.MatRows
open Idealize.SL.Sem
open Idealize.ShloMosaic.Pipeline (Dat Cfg Window)

variable (V : (c : Dev nD) → (b : Ref sig .tc) → Buf (Elt Ideal) ((c : Thread nD τ).loc b))

/-- The heads: the rectified array times the head matrix, plus the head bias row on every row. -/
def heads (a : S50000x256.Idx → EReal) (brow : S1x256.Idx → EReal) (w : S256x128.Idx → EReal) (crow : S1x128.Idx → EReal) :
    S50000x128.Idx → EReal :=
  fun i => (Host.dotGeneral (F := Ideal) (DotDims.plain 50000 256 128) none (φ₁ := .f32) (φ₂ := .f32) (Reg1.hidden a brow) w : S50000x128.Idx → EReal) i
    + crow (ix2 (0 : Fin 1) (⟨(i 1).val, idx2_lt1 i⟩ : Fin 128))

theorem heads_apply (a : S50000x256.Idx → EReal) (brow : S1x256.Idx → EReal) (w : S256x128.Idx → EReal) (crow : S1x128.Idx → EReal)
    (n : Fin 50000) (q : Fin 128) :
    heads a brow w crow (ix2 n q)
      = (∑ k : Fin 256, max (a (ix2 n k) + brow (ix2 (0 : Fin 1) k)) (Scalar.ofBits (F := Ideal) .f32 0x00000000#32) * w (ix2 k q))
        + crow (ix2 (0 : Fin 1) q) := by
  show (Host.dotGeneral (F := Ideal) (DotDims.plain 50000 256 128) none (φ₁ := .f32) (φ₂ := .f32) (Reg1.hidden a brow) w : S50000x128.Idx → EReal) (ix2 n q) + crow (ix2 (0 : Fin 1) q) = _
  rw [dotGeneral_plain_apply]
  rfl

/-- The body's stored value at row p, column q of its block. -/
theorem pay_apply (x0 : Vec Ideal S5000x256 .f32) (x1 : Vec Ideal S1x256 .f32) (x2 : Vec Ideal S256x128 .f32) (x3 : Vec Ideal S1x128 .f32)
    (p : Fin 5000) (q : Fin 128) :
    k2_pay1 x0 x1 x2 x3 (ix2 p q)
      = (∑ k : Fin 256, max (x0 (ix2 p k) + x1 (ix2 (0 : Fin 1) k)) (Scalar.ofBits (F := Ideal) .f32 0x00000000#32) * x2 (ix2 k q))
        + x3 (ix2 (0 : Fin 1) q) := by
  unfold k2_pay1
  simp only [shapeCast_self]
  show (matmul (F := Ideal) dot_S5000x256_S256x128_S5000x128_1_0_0_1_n_n none _ _ (constant (F := Ideal) S5000x128 .f32 0x00000000#32)) (ix2 p q)
      + (broadcastTo S5000x128 x3 broadcasts_S1x128_S5000x128) (ix2 p q) = _
  rw [broadcastTo_1b_ab_apply x3 broadcasts_S1x128_S5000x128 p q]
  refine congrArg (· + x3 (ix2 (0 : Fin 1) q)) ?_
  refine (matmul_plain_apply none _ _ p q).trans ?_
  refine Finset.sum_congr rfl fun k _ => ?_
  show max (x0 (ix2 p k) + (broadcastTo S5000x256 x1 broadcasts_S1x256_S5000x256) (ix2 p k)) _ * x2 (ix2 k q) = _
  rw [broadcastTo_1b_ab_apply x1 broadcasts_S1x256_S5000x256 p k]
  rfl

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 ∧ t.val < 10 :=
  (by decide +kernel : ∀ t : Fin grid2.N, _)

theorem idx_onto : ∀ q0 : Fin 10, ∃ t : Fin cfg2.N, t.val = q0.val :=
  (by decide +kernel : ∀ q0 : Fin 10, ∃ t : Fin grid2.N, t.val = q0.val)

/-- What point t writes back is block t of the heads of the arrays the region finds. -/
theorem flushed_eq (c : Dev nD) (t : Fin cfg2.N) :
    (dat2 V c).flushed 4 t = ((cfg2.win 4).blk t).view.read (Elt Ideal) (heads (V c main_v57) (V c main_v70) (V c main_v62) (V c main_v71)) := by
  show (cfg2.win 4).cut (grid2.coords t) ((dat2 V c).after 4 t) = _
  rw [after2_4]
  unfold out2_4
  rw [View.canon_unit_zero Reg0.hz]
  simp only [View.ld_unit_zero (S := S5000x256) Reg0.hz, View.ld_unit_zero (S := S256x128) Reg0.hz, View.ld_unit_zero (S := S1x256) Reg0.hz, View.ld_unit_zero (S := S1x128) Reg0.hz]
  obtain ⟨e0, e1, e2, e3, e4, e5, e6, e7, e8, e9, e10⟩ := idx_facts t
  funext j
  obtain ⟨p, q, rfl⟩ : ∃ (p : Fin 5000) (q : Fin 128), j = ix2 p q := ⟨j 0, j 1, eq_ix2 j⟩
  have hP : t.val * 5000 + p.val < 50000 := by have := p.isLt; omega
  have hemb : ((cfg2.win 4).blk t).view.emb (ix2 p q) = ix2 (⟨t.val * 5000 + p.val, hP⟩ : Fin 50000) q := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  show k2_pay1 (iblk2 V c 0 t) (iblk2 V c 1 t) (iblk2 V c 2 t) (iblk2 V c 3 t) (ix2 p q)
    = heads (V c main_v57) (V c main_v70) (V c main_v62) (V c main_v71) (((cfg2.win 4).blk t).view.emb (ix2 p q))
  refine (pay_apply _ _ _ _ p q).trans ?_
  rw [hemb, heads_apply]
  have h3 : iblk2 V c 3 t (ix2 (0 : Fin 1) q) = V c main_v71 (ix2 (0 : Fin 1) q) := by
    show V c main_v71 (((cfg2.win 3).blk t).view.emb (ix2 (0 : Fin 1) q)) = _
    refine congrArg _ ?_
    funext a; apply Fin.ext
    match a with
    | ⟨0, _⟩ => show win2_3.index t (0 : Fin 2) * 1 + 1 * 0 = 0; omega
    | ⟨1, _⟩ => show win2_3.index t (1 : Fin 2) * 128 + 1 * q.val = q.val; omega
  rw [h3]
  refine congrArg (· + V c main_v71 (ix2 (0 : Fin 1) q)) ?_
  refine Finset.sum_congr rfl fun k _ => ?_
  have h0 : iblk2 V c 0 t (ix2 p k) = V c main_v57 (ix2 (⟨t.val * 5000 + p.val, hP⟩ : Fin 50000) k) := by
    show V c main_v57 (((cfg2.win 0).blk t).view.emb (ix2 p k)) = _
    refine congrArg _ ?_
    funext a; apply Fin.ext
    match a with
    | ⟨0, _⟩ => show win2_0.index t (0 : Fin 2) * 5000 + 1 * p.val = t.val * 5000 + p.val; omega
    | ⟨1, _⟩ => show win2_0.index t (1 : Fin 2) * 256 + 1 * k.val = k.val; omega
  have h1 : iblk2 V c 1 t (ix2 (0 : Fin 1) k) = V c main_v70 (ix2 (0 : Fin 1) k) := by
    show V c main_v70 (((cfg2.win 1).blk t).view.emb (ix2 (0 : Fin 1) k)) = _
    refine congrArg _ ?_
    funext a; apply Fin.ext
    match a with
    | ⟨0, _⟩ => show win2_1.index t (0 : Fin 2) * 1 + 1 * 0 = 0; omega
    | ⟨1, _⟩ => show win2_1.index t (1 : Fin 2) * 256 + 1 * k.val = k.val; omega
  have h2 : iblk2 V c 2 t (ix2 k q) = V c main_v62 (ix2 k q) := by
    show V c main_v62 (((cfg2.win 2).blk t).view.emb (ix2 k q)) = _
    refine congrArg _ ?_
    funext a; apply Fin.ext
    match a with
    | ⟨0, _⟩ => show win2_2.index t (0 : Fin 2) * 256 + 1 * k.val = k.val; omega
    | ⟨1, _⟩ => show win2_2.index t (1 : Fin 2) * 128 + 1 * q.val = q.val; omega
  rw [h0, h1, h2]

theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v72).slice (win2_4.rect t)).set ↔ _
  rw [View.set_slice_whole, Rect.mem_set_unit]
  exact Iff.rfl

theorem cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨e0, e1, e2, e3, e4, e5, e6, e7, e8, e9, e10⟩ := idx_facts t
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The region's output array is the heads of the arrays it finds. -/
theorem final (c : Dev nD) : (dat2 V c).arrAt 4 cfg2.N = heads (V c main_v57) (V c main_v70) (V c main_v62) (V c main_v71) :=
  (dat2 V c).arrAt_eq_of_cover 4 (heads (V c main_v57) (V c main_v70) (V c main_v62) (V c main_v71)) (fun t _ => flushed_eq V c t) cover

end Cert.KernelIdeal.Reg2

end
-- ==== Proof.KernelKeep.lean ====
/-
  Buffers the kernel program's host stretches leave alone.

  An argument array, and the edge lists and normalisation computed before the first region, are written by no later
  host operation: read after a stretch they hold what they held before it.
-/
import proofs.«114901_j80796924772854_2_alg».proof.Proof.Gen.KernelIdeal.Frame
import Idealize.ShloMosaic.Lib.StableHlo.Run
import Idealize.ShloMosaic.Lib.ValueIdx
import Idealize.ShloMosaic.Lib.ValueLayout

set_option maxRecDepth 16384

noncomputable section

namespace Cert.KernelIdeal.Fold

open Cert.KernelIdeal Cert.KernelIdeal.Gen
open Idealize.ShloMosaic Idealize.ShloMosaic.TcCoe Idealize.ShloMosaic.ValueIdx Idealize.ShloMosaic.StableHlo
open Idealize.SL.Sem

/-! ## Buffers a host stretch does not write -/

theorem keep0_main_arg0 (W : Valuation τ sig (Elt Ideal)) :
    StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg2 (W : Valuation τ sig (Elt Ideal)) :
    StableHlo.after (hostOps0 (F := Ideal)) W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg3 (W : Valuation τ sig (Elt Ideal)) :
    StableHlo.after (hostOps0 (F := Ideal)) W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg4 (W : Valuation τ sig (Elt Ideal)) :
    StableHlo.after (hostOps0 (F := Ideal)) W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg5 (W : Valuation τ sig (Elt Ideal)) :
    StableHlo.after (hostOps0 (F := Ideal)) W (Proc.devRef .tc main_arg5) = W (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg6 (W : Valuation τ sig (Elt Ideal)) :
    StableHlo.after (hostOps0 (F := Ideal)) W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg7 (W : Valuation τ sig (Elt Ideal)) :
    StableHlo.after (hostOps0 (F := Ideal)) W (Proc.devRef .tc main_arg7) = W (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg8 (W : Valuation τ sig (Elt Ideal)) :
    StableHlo.after (hostOps0 (F := Ideal)) W (Proc.devRef .tc main_arg8) = W (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg9 (W : Valuation τ sig (Elt Ideal)) :
    StableHlo.after (hostOps0 (F := Ideal)) W (Proc.devRef .tc main_arg9) = W (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_v5 (W : Valuation τ sig (Elt Ideal)) :
    StableHlo.after (hostOps1 (F := Ideal)) W (Proc.devRef .tc main_v5) = W (Proc.devRef .tc main_v5) :=
  StableHlo.after_of_forall_not_mem (b := Proc.devRef .tc main_v5) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_v6 (W : Valuation τ sig (Elt Ideal)) :
    StableHlo.after (hostOps1 (F := Ideal)) W (Proc.devRef .tc main_v6) = W (Proc.devRef .tc main_v6) :=
  StableHlo.after_of_forall_not_mem (b := Proc.devRef .tc main_v6) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_v26 (W : Valuation τ sig (Elt Ideal)) :
    StableHlo.after (hostOps1 (F := Ideal)) W (Proc.devRef .tc main_v26) = W (Proc.devRef .tc main_v26) :=
  StableHlo.after_of_forall_not_mem (b := Proc.devRef .tc main_v26) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg4 (W : Valuation τ sig (Elt Ideal)) :
    StableHlo.after (hostOps1 (F := Ideal)) W (Proc.devRef .tc main_arg4) = W (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg5 (W : Valuation τ sig (Elt Ideal)) :
    StableHlo.after (hostOps1 (F := Ideal)) W (Proc.devRef .tc main_arg5) = W (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg6 (W : Valuation τ sig (Elt Ideal)) :
    StableHlo.after (hostOps1 (F := Ideal)) W (Proc.devRef .tc main_arg6) = W (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg7 (W : Valuation τ sig (Elt Ideal)) :
    StableHlo.after (hostOps1 (F := Ideal)) W (Proc.devRef .tc main_arg7) = W (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg8 (W : Valuation τ sig (Elt Ideal)) :
    StableHlo.after (hostOps1 (F := Ideal)) W (Proc.devRef .tc main_arg8) = W (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg9 (W : Valuation τ sig (Elt Ideal)) :
    StableHlo.after (hostOps1 (F := Ideal)) W (Proc.devRef .tc main_arg9) = W (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Fold

end
-- ==== Proof.RefLayers.lean ====
/-
  The reference's two rectified layers and its two heads, read at an entry.

  After each aggregation the reference adds the layer's bias to every row and takes the maximum with zero; entry
  (n, k) of the rectified array is the maximum of zero and the aggregated entry plus the bias at k.  A head is the
  rectified second layer times a one-column weight matrix plus a one-entry bias: at node n it is the sum over k of the
  rectified (n, k) times the weight at k, plus the bias.
-/
import proofs.«114901_j80796924772854_2_alg».proof.Proof.Gen.ReferenceIdeal.Read
import Idealize.ShloMosaic.Lib.ValueIdx
import Idealize.ShloMosaic.PureOps.Ideal.Laws

noncomputable section

open scoped BigOperators

namespace Cert.ReferenceIdeal.Layers

open Cert.ReferenceIdeal Cert.ReferenceIdeal.Read Idealize.ShloMosaic Idealize.ShloMosaic.ValueIdx

/-- The first rectified layer at (n, k). -/
theorem hidden1_apply (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (n : Fin 50000) (k : Fin 256) :
    val_main_v44 (F := Ideal) x0 x1 x2 x3 (ix2 n k)
      = max (val_main_v40 (F := Ideal) x0 x1 x2 (ix2 n k) + x3 (ix1 k)) (Scalar.ofBits (F := Ideal) .f32 0x00000000#32) := by
  rw [val_main_v44_apply, val_main_v43_apply, val_main_v42_apply, val_main_v41_apply, val_main_call0_v0_apply, val_main_call0_cst_apply]
  have e : idx_main_v41 (idx_main_v42 (ix2 n k)) = ix1 k := funext fun a => match a with | ⟨0, _⟩ => rfl
  rw [e]
  rfl

/-- The second rectified layer at (n, k). -/
theorem hidden2_apply (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (n : Fin 50000) (k : Fin 256) :
    val_main_v85 (F := Ideal) x0 x1 x2 x3 x4 x5 (ix2 n k)
      = max (val_main_v81 (F := Ideal) x0 x1 x2 x3 x4 (ix2 n k) + x5 (ix1 k)) (Scalar.ofBits (F := Ideal) .f32 0x00000000#32) := by
  rw [val_main_v85_apply, val_main_v84_apply, val_main_v83_apply, val_main_v82_apply, val_main_call1_v0_apply, val_main_call1_cst_apply]
  have e : idx_main_v82 (idx_main_v83 (ix2 n k)) = ix1 k := funext fun a => match a with | ⟨0, _⟩ => rfl
  rw [e]
  rfl

/-- The actor head at node n. -/
theorem actor_apply (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x1, .f32⟩ : BufTy).Contents (Elt Ideal)) (x7 : (⟨S1, .f32⟩ : BufTy).Contents (Elt Ideal)) (n : Fin 50000) :
    val_main_v90 (F := Ideal) x0 x1 x2 x3 x4 x5 x6 x7 (ix1 n)
      = (∑ k : Fin 256, val_main_v85 (F := Ideal) x0 x1 x2 x3 x4 x5 (ix2 n k) * x6 (ix2 k (0 : Fin 1))) + x7 (ix1 (0 : Fin 1)) := by
  rw [val_main_v90_apply, val_main_v89_apply, val_main_v86_apply, val_main_v88_apply, val_main_v87_apply]
  have e7 : idx_main_v87 (idx_main_v88 (idx_main_v90 (ix1 n))) = ix1 (0 : Fin 1) := funext fun a => match a with | ⟨0, _⟩ => rfl
  have el : ∀ k : Fin 256, lidx_main_v86 (idx_main_v90 (ix1 n)) k = ix2 n k := fun k => funext fun a => match a with
    | ⟨0, _⟩ => Fin.ext (Nat.div_one _)
    | ⟨1, _⟩ => rfl
  have er : ∀ k : Fin 256, ridx_main_v86 (idx_main_v90 (ix1 n)) k = ix2 k (0 : Fin 1) := fun k => funext fun a => match a with
    | ⟨0, _⟩ => rfl
    | ⟨1, _⟩ => rfl
  rw [e7]
  simp only [el, er]
  rfl

/-- The critic head at node n. -/
theorem critic_apply (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x8 : (⟨S256x1, .f32⟩ : BufTy).Contents (Elt Ideal)) (x9 : (⟨S1, .f32⟩ : BufTy).Contents (Elt Ideal)) (n : Fin 50000) (z : Fin 1) :
    val_main_v94 (F := Ideal) x0 x1 x2 x3 x4 x5 x8 x9 (ix2 n z)
      = (∑ k : Fin 256, val_main_v85 (F := Ideal) x0 x1 x2 x3 x4 x5 (ix2 n k) * x8 (ix2 k (0 : Fin 1))) + x9 (ix1 (0 : Fin 1)) := by
  rw [val_main_v94_apply, val_main_v91_apply, val_main_v93_apply, val_main_v92_apply]
  have hz : z = 0 := Fin.ext (by have := z.isLt; omega)
  subst hz
  have e9 : idx_main_v92 (idx_main_v93 (ix2 n (0 : Fin 1))) = ix1 (0 : Fin 1) := funext fun a => match a with | ⟨0, _⟩ => rfl
  have el : ∀ k : Fin 256, lidx_main_v91 (ix2 n (0 : Fin 1)) k = ix2 n k := fun k => funext fun a => match a with
    | ⟨0, _⟩ => rfl
    | ⟨1, _⟩ => rfl
  have er : ∀ k : Fin 256, ridx_main_v91 (ix2 n (0 : Fin 1)) k = ix2 k (0 : Fin 1) := fun k => funext fun a => match a with
    | ⟨0, _⟩ => rfl
    | ⟨1, _⟩ => rfl
  rw [e9]
  simp only [el, er]
  rfl

end Cert.ReferenceIdeal.Layers

end
-- ==== Proof.KernelFold.lean ====
/-
  The idealized kernel's two results as functions of its arguments.

  The buffers at the return are read back through the program, stretch by stretch.  The first host stretch computes
  the edge lists with self-loops and the symmetric normalisation; these are the same expressions the reference
  computes.  Region 0 leaves the product of the node features and the first weights.  The next stretch gathers its
  rows along the sources, scales them by the normalisation and sums them at the targets.  Region 1 leaves the second
  layer's product of the rectified aggregate, the stretch after it aggregates again, and region 2 leaves the two heads
  in columns 0 and 1 of a 128-column array, which the last stretch slices out.  Each stage is identified with the
  stage of the reference that computes the same array.
-/
import proofs.«114901_j80796924772854_2_alg».proof.Proof.Gen.KernelIdeal.Frame
import proofs.«114901_j80796924772854_2_alg».proof.Proof.Gen.ReferenceIdeal.Read
import proofs.«114901_j80796924772854_2_alg».proof.Proof.KRegion0
import proofs.«114901_j80796924772854_2_alg».proof.Proof.KRegion1
import proofs.«114901_j80796924772854_2_alg».proof.Proof.KRegion2
import proofs.«114901_j80796924772854_2_alg».proof.Proof.KernelKeep
import proofs.«114901_j80796924772854_2_alg».proof.Proof.RefLayers
import Idealize.ShloMosaic.Lib.StableHlo.Run
import Idealize.ShloMosaic.Lib.ValueIdx
import Idealize.ShloMosaic.Lib.ValueLayout

set_option maxRecDepth 16384

noncomputable section

namespace Cert.KernelIdeal.Fold

open Cert.KernelIdeal Cert.KernelIdeal.Gen Cert.ReferenceIdeal.Read
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-! ## Before region 0: the edge lists and the normalisation -/

theorem A1_0 : W1 m ρ c (Proc.devRef .tc main_arg0) = (m ((c : Thread nD τ).loc main_arg0)) := keep0_main_arg0 _
theorem A1_2 : W1 m ρ c (Proc.devRef .tc main_arg2) = (m ((c : Thread nD τ).loc main_arg2)) := keep0_main_arg2 _
theorem A1_3 : W1 m ρ c (Proc.devRef .tc main_arg3) = (m ((c : Thread nD τ).loc main_arg3)) := keep0_main_arg3 _
theorem A1_4 : W1 m ρ c (Proc.devRef .tc main_arg4) = (m ((c : Thread nD τ).loc main_arg4)) := keep0_main_arg4 _
theorem A1_5 : W1 m ρ c (Proc.devRef .tc main_arg5) = (m ((c : Thread nD τ).loc main_arg5)) := keep0_main_arg5 _
theorem A1_6 : W1 m ρ c (Proc.devRef .tc main_arg6) = (m ((c : Thread nD τ).loc main_arg6)) := keep0_main_arg6 _
theorem A1_7 : W1 m ρ c (Proc.devRef .tc main_arg7) = (m ((c : Thread nD τ).loc main_arg7)) := keep0_main_arg7 _
theorem A1_8 : W1 m ρ c (Proc.devRef .tc main_arg8) = (m ((c : Thread nD τ).loc main_arg8)) := keep0_main_arg8 _
theorem A1_9 : W1 m ρ c (Proc.devRef .tc main_arg9) = (m ((c : Thread nD τ).loc main_arg9)) := keep0_main_arg9 _

/-- The sources with self-loops. -/
theorem W1_src : W1 m ρ c (Proc.devRef .tc main_v5) = val_main_v6 (F := Ideal) (m ((c : Thread nD τ).loc main_arg1)) := by
  show StableHlo.after hostOps0 (W0 m ρ c) (Proc.devRef .tc main_v5) = _
  after_results_simp <;> rfl

/-- The targets with self-loops. -/
theorem W1_dst : W1 m ρ c (Proc.devRef .tc main_v6) = val_main_v7 (F := Ideal) (m ((c : Thread nD τ).loc main_arg1)) := by
  show StableHlo.after hostOps0 (W0 m ρ c) (Proc.devRef .tc main_v6) = _
  after_results_simp <;> rfl

/-- The normalisation of every edge. -/
theorem W1_norm : W1 m ρ c (Proc.devRef .tc main_v26) = val_main_v27 (F := Ideal) (m ((c : Thread nD τ).loc main_arg1)) := by
  show StableHlo.after hostOps0 (W0 m ρ c) (Proc.devRef .tc main_v26) = _
  after_results_simp <;> rfl

/-! ## The arguments, the edge lists and the normalisation at the later boundaries -/

theorem A2_3 : W2 m ρ c (Proc.devRef .tc main_arg3) = (m ((c : Thread nD τ).loc main_arg3)) := (W2_of_ne m ρ c main_arg3 (by decide)).trans (A1_3 m ρ c)
theorem A2_4 : W2 m ρ c (Proc.devRef .tc main_arg4) = (m ((c : Thread nD τ).loc main_arg4)) := (W2_of_ne m ρ c main_arg4 (by decide)).trans (A1_4 m ρ c)
theorem A2_5 : W2 m ρ c (Proc.devRef .tc main_arg5) = (m ((c : Thread nD τ).loc main_arg5)) := (W2_of_ne m ρ c main_arg5 (by decide)).trans (A1_5 m ρ c)
theorem A2_6 : W2 m ρ c (Proc.devRef .tc main_arg6) = (m ((c : Thread nD τ).loc main_arg6)) := (W2_of_ne m ρ c main_arg6 (by decide)).trans (A1_6 m ρ c)
theorem A2_7 : W2 m ρ c (Proc.devRef .tc main_arg7) = (m ((c : Thread nD τ).loc main_arg7)) := (W2_of_ne m ρ c main_arg7 (by decide)).trans (A1_7 m ρ c)
theorem A2_8 : W2 m ρ c (Proc.devRef .tc main_arg8) = (m ((c : Thread nD τ).loc main_arg8)) := (W2_of_ne m ρ c main_arg8 (by decide)).trans (A1_8 m ρ c)
theorem A2_9 : W2 m ρ c (Proc.devRef .tc main_arg9) = (m ((c : Thread nD τ).loc main_arg9)) := (W2_of_ne m ρ c main_arg9 (by decide)).trans (A1_9 m ρ c)
theorem A3_4 : W3 m ρ c (Proc.devRef .tc main_arg4) = (m ((c : Thread nD τ).loc main_arg4)) := (keep1_main_arg4 _).trans (A2_4 m ρ c)
theorem A3_5 : W3 m ρ c (Proc.devRef .tc main_arg5) = (m ((c : Thread nD τ).loc main_arg5)) := (keep1_main_arg5 _).trans (A2_5 m ρ c)
theorem A3_6 : W3 m ρ c (Proc.devRef .tc main_arg6) = (m ((c : Thread nD τ).loc main_arg6)) := (keep1_main_arg6 _).trans (A2_6 m ρ c)
theorem A3_7 : W3 m ρ c (Proc.devRef .tc main_arg7) = (m ((c : Thread nD τ).loc main_arg7)) := (keep1_main_arg7 _).trans (A2_7 m ρ c)
theorem A3_8 : W3 m ρ c (Proc.devRef .tc main_arg8) = (m ((c : Thread nD τ).loc main_arg8)) := (keep1_main_arg8 _).trans (A2_8 m ρ c)
theorem A3_9 : W3 m ρ c (Proc.devRef .tc main_arg9) = (m ((c : Thread nD τ).loc main_arg9)) := (keep1_main_arg9 _).trans (A2_9 m ρ c)
theorem A4_5 : W4 m ρ c (Proc.devRef .tc main_arg5) = (m ((c : Thread nD τ).loc main_arg5)) := (W4_of_ne m ρ c main_arg5 (by decide)).trans (A3_5 m ρ c)
theorem A4_6 : W4 m ρ c (Proc.devRef .tc main_arg6) = (m ((c : Thread nD τ).loc main_arg6)) := (W4_of_ne m ρ c main_arg6 (by decide)).trans (A3_6 m ρ c)
theorem A4_7 : W4 m ρ c (Proc.devRef .tc main_arg7) = (m ((c : Thread nD τ).loc main_arg7)) := (W4_of_ne m ρ c main_arg7 (by decide)).trans (A3_7 m ρ c)
theorem A4_8 : W4 m ρ c (Proc.devRef .tc main_arg8) = (m ((c : Thread nD τ).loc main_arg8)) := (W4_of_ne m ρ c main_arg8 (by decide)).trans (A3_8 m ρ c)
theorem A4_9 : W4 m ρ c (Proc.devRef .tc main_arg9) = (m ((c : Thread nD τ).loc main_arg9)) := (W4_of_ne m ρ c main_arg9 (by decide)).trans (A3_9 m ρ c)
theorem E2_src : W2 m ρ c (Proc.devRef .tc main_v5) = val_main_v6 (F := Ideal) (m ((c : Thread nD τ).loc main_arg1)) := (W2_of_ne m ρ c main_v5 (by decide)).trans (W1_src m ρ c)
theorem E3_src : W3 m ρ c (Proc.devRef .tc main_v5) = val_main_v6 (F := Ideal) (m ((c : Thread nD τ).loc main_arg1)) := (keep1_main_v5 _).trans (E2_src m ρ c)
theorem E4_src : W4 m ρ c (Proc.devRef .tc main_v5) = val_main_v6 (F := Ideal) (m ((c : Thread nD τ).loc main_arg1)) := (W4_of_ne m ρ c main_v5 (by decide)).trans (E3_src m ρ c)
theorem E2_dst : W2 m ρ c (Proc.devRef .tc main_v6) = val_main_v7 (F := Ideal) (m ((c : Thread nD τ).loc main_arg1)) := (W2_of_ne m ρ c main_v6 (by decide)).trans (W1_dst m ρ c)
theorem E3_dst : W3 m ρ c (Proc.devRef .tc main_v6) = val_main_v7 (F := Ideal) (m ((c : Thread nD τ).loc main_arg1)) := (keep1_main_v6 _).trans (E2_dst m ρ c)
theorem E4_dst : W4 m ρ c (Proc.devRef .tc main_v6) = val_main_v7 (F := Ideal) (m ((c : Thread nD τ).loc main_arg1)) := (W4_of_ne m ρ c main_v6 (by decide)).trans (E3_dst m ρ c)
theorem E2_norm : W2 m ρ c (Proc.devRef .tc main_v26) = val_main_v27 (F := Ideal) (m ((c : Thread nD τ).loc main_arg1)) := (W2_of_ne m ρ c main_v26 (by decide)).trans (W1_norm m ρ c)
theorem E3_norm : W3 m ρ c (Proc.devRef .tc main_v26) = val_main_v27 (F := Ideal) (m ((c : Thread nD τ).loc main_arg1)) := (keep1_main_v26 _).trans (E2_norm m ρ c)
theorem E4_norm : W4 m ρ c (Proc.devRef .tc main_v26) = val_main_v27 (F := Ideal) (m ((c : Thread nD τ).loc main_arg1)) := (W4_of_ne m ρ c main_v26 (by decide)).trans (E3_norm m ρ c)

/-! ## One aggregation: gather along the sources, scale, sum at the targets -/

/-- The aggregation of a node array `h` along edges with sources `s`, targets `d` and weights `nrm`, as the
    program spells it (a negative source index wraps by the node count before the gather). -/
def aggregate (h : S50000x256.Idx → EReal) (s d : S850000.Idx → BitVec 32) (nrm : S850000.Idx → EReal) : S50000x256.Idx → EReal :=
  Host.scatterAdd (F := Ideal) (φ := .f32) scatter_S50000x256_S850000x1_S850000x256_1_0_0_1
    (broadcastInDim S50000x256 ![] bcast_S_S50000x256 (constant (F := Ideal) S_ .f32 0x00000000#32))
    (broadcastInDim S850000x1 ![0] bcast_S850000_S850000x1_0 d)
    (mulf (F := Ideal)
      (extf (F := Ideal) .f32 (Host.gather gather_S50000x256_S850000x1_S850000x256_1_0_n_n_0_1_1256 (h : FVec Ideal S50000x256 .bf16)
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s))) bitsLt_bf16_f32)
      (broadcastInDim S850000x256 ![0, 1] bcast_S850000x1_S850000x256_0_1 (broadcastInDim S850000x1 ![0] bcast_S850000_S850000x1_0 nrm)))

/-- The reference's first aggregation is this one, of its own first product. -/
theorem agg_ref1 (x0 : (⟨S50000x256, .f32⟩ : BufTy).Contents (Elt Ideal)) (x1 : (⟨S2x800000, .i32⟩ : BufTy).Contents (Elt Ideal)) (x2 : (⟨S256x256, .f32⟩ : BufTy).Contents (Elt Ideal)) :
    aggregate (val_main_v4 (F := Ideal) x0 x2) (val_main_v6 (F := Ideal) x1) (val_main_v7 (F := Ideal) x1) (val_main_v27 (F := Ideal) x1)
      = val_main_v40 (F := Ideal) x0 x1 x2 := rfl

/-- The reference's second aggregation is this one, of its own second product. -/
theorem agg_ref2 (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) :
    aggregate (val_main_v45 (F := Ideal) x0 x1 x2 x3 x4) (val_main_v6 (F := Ideal) x1) (val_main_v7 (F := Ideal) x1) (val_main_v27 (F := Ideal) x1)
      = val_main_v81 (F := Ideal) x0 x1 x2 x3 x4 := rfl

/-! ## Region 0 and the first aggregation -/

theorem W2_lin1 : W2 m ρ c (Proc.devRef .tc main_v27) = val_main_v4 (F := Ideal) (m ((c : Thread nD τ).loc main_arg0)) (m ((c : Thread nD τ).loc main_arg2)) := by
  refine ((W2_arr m ρ c 2).trans (Reg0.final (V1 m ρ) c)).trans ?_
  show Reg0.prod (W1 m ρ c (Proc.devRef .tc main_arg0)) (W1 m ρ c (Proc.devRef .tc main_arg2)) = _
  rw [A1_0, A1_2]
  rfl

theorem W3_agg : W3 m ρ c (Proc.devRef .tc main_v41)
    = aggregate (W2 m ρ c (Proc.devRef .tc main_v27)) (W2 m ρ c (Proc.devRef .tc main_v5)) (W2 m ρ c (Proc.devRef .tc main_v6)) (W2 m ρ c (Proc.devRef .tc main_v26)) := by
  show StableHlo.after hostOps1 (W2 m ρ c) (Proc.devRef .tc main_v41) = _
  after_results_simp <;> rfl

theorem W3_agg1 : W3 m ρ c (Proc.devRef .tc main_v41) = val_main_v40 (F := Ideal) (m ((c : Thread nD τ).loc main_arg0)) (m ((c : Thread nD τ).loc main_arg1)) (m ((c : Thread nD τ).loc main_arg2)) := by
  rw [W3_agg, W2_lin1, E2_src, E2_dst, E2_norm]
  exact agg_ref1 _ _ _

theorem W3_b1row : W3 m ρ c (Proc.devRef .tc main_v42) = shapeCast S1x256 (m ((c : Thread nD τ).loc main_arg3)) shapeCasts_S256_S1x256 := by
  have e : W3 m ρ c (Proc.devRef .tc main_v42) = shapeCast S1x256 (W2 m ρ c (Proc.devRef .tc main_arg3)) shapeCasts_S256_S1x256 := by
    show StableHlo.after hostOps1 (W2 m ρ c) (Proc.devRef .tc main_v42) = _
    after_results_simp <;> rfl
  rw [e, A2_3]

/-! ## Region 1 and the second aggregation -/

theorem hidden_ref1 (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) :
    Reg1.hidden (val_main_v40 (F := Ideal) x0 x1 x2) (shapeCast S1x256 x3 shapeCasts_S256_S1x256) = val_main_v44 (F := Ideal) x0 x1 x2 x3 := by
  funext i
  obtain ⟨n, k, rfl⟩ : ∃ (n : Fin 50000) (k : Fin 256), i = ix2 n k := ⟨i 0, i 1, eq_ix2 i⟩
  rw [Reg1.hidden_apply, Cert.ReferenceIdeal.Layers.hidden1_apply, shapeCast_a_1a_apply]

theorem layer_ref1 (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) :
    Reg1.layer (val_main_v40 (F := Ideal) x0 x1 x2) (shapeCast S1x256 x3 shapeCasts_S256_S1x256) x4 = val_main_v45 (F := Ideal) x0 x1 x2 x3 x4 := by
  unfold Reg1.layer
  rw [hidden_ref1]
  rfl

theorem W4_lin2 : W4 m ρ c (Proc.devRef .tc main_v43) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W4_arr m ρ c 3).trans (Reg1.final (V3 m ρ) c)).trans ?_
  show Reg1.layer (W3 m ρ c (Proc.devRef .tc main_v41)) (W3 m ρ c (Proc.devRef .tc main_v42)) (W3 m ρ c (Proc.devRef .tc main_arg4)) = _
  rw [W3_agg1, W3_b1row, A3_4]
  exact layer_ref1 _ _ _ _ _

theorem W5_agg : W5 m ρ c (Proc.devRef .tc main_v57)
    = aggregate (W4 m ρ c (Proc.devRef .tc main_v43)) (W4 m ρ c (Proc.devRef .tc main_v5)) (W4 m ρ c (Proc.devRef .tc main_v6)) (W4 m ρ c (Proc.devRef .tc main_v26)) := by
  show StableHlo.after hostOps2 (W4 m ρ c) (Proc.devRef .tc main_v57) = _
  after_results_simp <;> rfl

theorem W5_agg2 : W5 m ρ c (Proc.devRef .tc main_v57) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [W5_agg, W4_lin2, E4_src, E4_dst, E4_norm]
  exact agg_ref2 _ _ _ _ _

end Cert.KernelIdeal.Fold

end
-- ==== Proof.LibScatterSet.lean ====
/-
  A host scatter whose body returns the update ("set"), read at one element.

  The operation folds over the update's elements in order; each lands at one element of the operand or is dropped.
  At an element that exactly one update element lands on, the result is that update element; at an element none
  lands on, the result is the operand's.  Both facts are generic in the shapes and the dimension numbers.
-/
import Idealize.ShloMosaic.PureOps

noncomputable section

namespace Idealize.ShloMosaic.ScatterSet

open Idealize.ShloMosaic

variable {ι α β : Type} [DecidableEq ι]

/-- One step of the fold: the element the update lands on is replaced, every other kept. -/
def step (g : β → Option ι) (v : β → α) (r : ι → α) (n : β) : ι → α :=
  match g n with
  | some i => fun i' => if i' = i then v n else r i'
  | none => r

theorem step_miss (g : β → Option ι) (v : β → α) (r : ι → α) (n : β) (i' : ι) (h : g n ≠ some i') :
    step g v r n i' = r i' := by
  unfold step
  cases hg : g n with
  | none => rfl
  | some i =>
    have : i' ≠ i := fun e => h (by rw [hg, e])
    simp only [if_neg this]

theorem step_hit (g : β → Option ι) (v : β → α) (r : ι → α) (n : β) (i' : ι) (h : g n = some i') :
    step g v r n i' = v n := by
  unfold step
  rw [h]
  exact if_pos rfl

/-- An element no update of the list lands on keeps its contents through the fold. -/
theorem foldl_miss (g : β → Option ι) (v : β → α) (l : List β) (x : ι → α) (i' : ι)
    (h : ∀ n ∈ l, g n ≠ some i') : l.foldl (step g v) x i' = x i' := by
  induction l generalizing x with
  | nil => rfl
  | cons n l ih =>
    rw [List.foldl_cons, ih (step g v x n) (fun n' hn' => h n' (List.mem_cons_of_mem _ hn'))]
    exact step_miss g v x n i' (h n List.mem_cons_self)

/-- An element exactly one update of a duplicate-free list lands on ends at that update. -/
theorem foldl_hit (g : β → Option ι) (v : β → α) (l : List β) (hnd : l.Nodup) (x : ι → α) (i' : ι) (n0 : β)
    (hmem : n0 ∈ l) (h0 : g n0 = some i') (huniq : ∀ n ∈ l, g n = some i' → n = n0) :
    l.foldl (step g v) x i' = v n0 := by
  induction l generalizing x with
  | nil => exact absurd hmem (List.not_mem_nil)
  | cons n l ih =>
    rw [List.foldl_cons]
    have hnd' := List.nodup_cons.mp hnd
    by_cases hn : n = n0
    · subst hn
      rw [foldl_miss g v l _ i' (fun n' hn' e => hnd'.1 (by rw [← huniq n' (List.mem_cons_of_mem _ hn') e]; exact hn'))]
      exact step_hit g v x n i' h0
    · have hmem' : n0 ∈ l := by
        rcases List.mem_cons.mp hmem with e | e
        · exact absurd e.symm hn
        · exact e
      exact ih hnd'.2 _ hmem' (fun n' hn' => huniq n' (List.mem_cons_of_mem _ hn'))

variable {s si u : Shape} {w : Nat}

/-- The host scatter is the fold of `step` over the update's elements in row-major order. -/
theorem scatter_eq_foldl (d : ScatterDims s si u) (x : s.Idx → α) (idx : IVec si w) (upd : u.Idx → α) :
    Host.scatter d (fun _ b => b) x idx upd
      = (List.finRange u.numel).foldl (step (fun n => d.resultIdx? (u.rowMajor.symm n) idx) (fun n => upd (u.rowMajor.symm n))) x := by
  unfold Host.scatter
  refine congrArg (fun f => List.foldl f x (List.finRange u.numel)) ?_
  funext r n
  unfold step
  beta_reduce
  cases d.resultIdx? (u.rowMajor.symm n) idx with
  | none => rfl
  | some i =>
    funext i'
    by_cases hi : i' = i
    · exact (if_pos hi).trans (if_pos hi).symm
    · exact (if_neg hi).trans (if_neg hi).symm

/-- At an element that update element `j0`, and no other, lands on, a set-scatter holds `upd j0`. -/
theorem scatter_set_hit (d : ScatterDims s si u) (x : s.Idx → α) (idx : IVec si w) (upd : u.Idx → α) (i' : s.Idx) (j0 : u.Idx)
    (h0 : d.resultIdx? j0 idx = some i') (huniq : ∀ j, d.resultIdx? j idx = some i' → j = j0) :
    Host.scatter d (fun _ b => b) x idx upd i' = upd j0 := by
  rw [scatter_eq_foldl]
  have := foldl_hit (fun n => d.resultIdx? (u.rowMajor.symm n) idx) (fun n => upd (u.rowMajor.symm n))
    (List.finRange u.numel) (List.nodup_finRange _) x i' (u.rowMajor j0) (List.mem_finRange _)
    (by simp only [Equiv.symm_apply_apply]; exact h0)
    (fun n _ hn => by
      have := huniq _ hn
      rw [← this, Equiv.apply_symm_apply])
  rw [this, Equiv.symm_apply_apply]

/-- At an element no update element lands on, a set-scatter holds the operand's element. -/
theorem scatter_set_miss (d : ScatterDims s si u) (x : s.Idx → α) (idx : IVec si w) (upd : u.Idx → α) (i' : s.Idx)
    (h : ∀ j, d.resultIdx? j idx ≠ some i') :
    Host.scatter d (fun _ b => b) x idx upd i' = x i' := by
  rw [scatter_eq_foldl]
  exact foldl_miss _ _ _ x i' (fun n _ => h _)

end Idealize.ShloMosaic.ScatterSet

end
-- ==== Proof.HeadParams.lean ====
/-
  The padded head matrix and head bias, read where the heads use them.

  The kernel's wrapper builds a 256 x 128 matrix of zeros and sets its column 0 to the actor weights and its column 1
  to the critic weights, and a 128-vector of zeros with entry 0 the actor bias and entry 1 the critic bias; each "set"
  is a host scatter at one constant start index whose body returns the update.  An update element (k, 0) lands at
  (k, c) for the start c, distinct elements land apart, and nothing is dropped; so the column c receives the update
  and every other column keeps what it held.
-/
import proofs.«114901_j80796924772854_2_alg».proof.KernelIdeal
import proofs.«114901_j80796924772854_2_alg».proof.Proof.Gen.KernelIdeal
import proofs.«114901_j80796924772854_2_alg».proof.Proof.LibScatterSet
import Idealize.ShloMosaic.Lib.ValueIdx

noncomputable section

namespace Cert.KernelIdeal.HeadParams

open Cert.KernelIdeal Idealize.ShloMosaic Idealize.ShloMosaic.ValueIdx Idealize.ShloMosaic.ScatterSet

variable {α : Type}

/-! ## A column set into the 256 x 128 matrix -/

theorem col_start1 (idx : IVec S1 32) (cB : BitVec 32) (hidx : ∀ i, idx i = cB) (j : S256x1.Idx) :
    scatter_S256x128_S1_S256x1_01_n_1_0.start j idx (1 : Fin 2) = cB.toInt := by
  unfold ScatterDims.start
  rw [dif_pos (by decide), hidx]

/-- Update element (k, z) lands at (k, c), c the constant start. -/
theorem col_resultIdx (idx : IVec S1 32) (cB : BitVec 32) (hidx : ∀ i, idx i = cB) (cN : Fin 128) (hc : cB.toInt = (cN.val : Int))
    (k : Fin 256) (z : Fin 1) :
    scatter_S256x128_S1_S256x1_01_n_1_0.resultIdx? (ix2 k z) idx = some (ix2 k cN) := by
  have hs0 : scatter_S256x128_S1_S256x1_01_n_1_0.start (ix2 k z) idx (0 : Fin 2) = 0 := rfl
  have hs1 := col_start1 idx cB hidx (ix2 k z)
  have hw0 : scatter_S256x128_S1_S256x1_01_n_1_0.window (ix2 k z) (0 : Fin 2) = k.val := rfl
  have hw1 : scatter_S256x128_S1_S256x1_01_n_1_0.window (ix2 k z) (1 : Fin 2) = z.val := rfl
  have hz : z.val = 0 := by have := z.isLt; omega
  have hk := k.isLt
  have hcN := cN.isLt
  have hall : ∀ a, 0 ≤ scatter_S256x128_S1_S256x1_01_n_1_0.start (ix2 k z) idx a + scatter_S256x128_S1_S256x1_01_n_1_0.window (ix2 k z) a
      ∧ scatter_S256x128_S1_S256x1_01_n_1_0.start (ix2 k z) idx a + scatter_S256x128_S1_S256x1_01_n_1_0.window (ix2 k z) a < S256x128.size a := by
    refine Fin.forall_fin_two.mpr ⟨?_, ?_⟩
    · rw [hs0, hw0]; show (0 : Int) ≤ 0 + (k.val : Int) ∧ (0 : Int) + (k.val : Int) < ((256 : Nat) : Int); omega
    · rw [hs1, hw1, hc]; show (0 : Int) ≤ (cN.val : Int) + (z.val : Int) ∧ (cN.val : Int) + (z.val : Int) < ((128 : Nat) : Int); omega
  unfold ScatterDims.resultIdx?
  rw [dif_pos hall]
  refine congrArg some (funext fun a => Fin.ext ?_)
  revert a
  refine Fin.forall_fin_two.mpr ⟨?_, ?_⟩
  · show (scatter_S256x128_S1_S256x1_01_n_1_0.start (ix2 k z) idx (0 : Fin 2) + scatter_S256x128_S1_S256x1_01_n_1_0.window (ix2 k z) (0 : Fin 2)).toNat = k.val
    rw [hs0, hw0]; omega
  · show (scatter_S256x128_S1_S256x1_01_n_1_0.start (ix2 k z) idx (1 : Fin 2) + scatter_S256x128_S1_S256x1_01_n_1_0.window (ix2 k z) (1 : Fin 2)).toNat = cN.val
    rw [hs1, hw1, hc]; omega

/-- The column the start names receives the update. -/
theorem colset_hit (x : S256x128.Idx → α) (idx : IVec S1 32) (upd : S256x1.Idx → α) (cB : BitVec 32) (hidx : ∀ i, idx i = cB)
    (cN : Fin 128) (hc : cB.toInt = (cN.val : Int)) (k : Fin 256) :
    Host.scatter scatter_S256x128_S1_S256x1_01_n_1_0 (fun _ b => b) x idx upd (ix2 k cN) = upd (ix2 k (0 : Fin 1)) := by
  refine scatter_set_hit _ x idx upd (ix2 k cN) (ix2 k (0 : Fin 1)) (col_resultIdx idx cB hidx cN hc k 0) fun j hj => ?_
  obtain ⟨k', z, rfl⟩ : ∃ (k' : Fin 256) (z : Fin 1), j = ix2 k' z := ⟨j 0, j 1, eq_ix2 j⟩
  rw [col_resultIdx idx cB hidx cN hc k' z] at hj
  have h0 : k' = k := congrFun (Option.some.inj hj) (0 : Fin 2)
  have hz : z = 0 := Fin.ext (by have := z.isLt; omega)
  rw [h0, hz]

/-- Every other column keeps its contents. -/
theorem colset_miss (x : S256x128.Idx → α) (idx : IVec S1 32) (upd : S256x1.Idx → α) (cB : BitVec 32) (hidx : ∀ i, idx i = cB)
    (cN : Fin 128) (hc : cB.toInt = (cN.val : Int)) (k : Fin 256) (q : Fin 128) (hq : q ≠ cN) :
    Host.scatter scatter_S256x128_S1_S256x1_01_n_1_0 (fun _ b => b) x idx upd (ix2 k q) = x (ix2 k q) := by
  refine scatter_set_miss _ x idx upd (ix2 k q) fun j hj => ?_
  obtain ⟨k', z, rfl⟩ : ∃ (k' : Fin 256) (z : Fin 1), j = ix2 k' z := ⟨j 0, j 1, eq_ix2 j⟩
  rw [col_resultIdx idx cB hidx cN hc k' z] at hj
  exact hq (congrFun (Option.some.inj hj) (1 : Fin 2)).symm

/-! ## An entry set into the 128-vector -/

theorem vec_start (idx : IVec S1 32) (cB : BitVec 32) (hidx : ∀ i, idx i = cB) (j : S_.Idx) :
    scatter_S128_S1_S__n_0_0_0.start j idx (0 : Fin 1) = cB.toInt := by
  unfold ScatterDims.start
  rw [dif_pos (by decide), hidx]

theorem vec_resultIdx (idx : IVec S1 32) (cB : BitVec 32) (hidx : ∀ i, idx i = cB) (cN : Fin 128) (hc : cB.toInt = (cN.val : Int))
    (j : S_.Idx) : scatter_S128_S1_S__n_0_0_0.resultIdx? j idx = some (ix1 cN) := by
  have hs := vec_start idx cB hidx j
  have hw : scatter_S128_S1_S__n_0_0_0.window j (0 : Fin 1) = 0 := rfl
  have hcN := cN.isLt
  have hall : ∀ a, 0 ≤ scatter_S128_S1_S__n_0_0_0.start j idx a + scatter_S128_S1_S__n_0_0_0.window j a
      ∧ scatter_S128_S1_S__n_0_0_0.start j idx a + scatter_S128_S1_S__n_0_0_0.window j a < S128.size a := by
    intro a
    obtain rfl : a = 0 := Subsingleton.elim _ _
    rw [hs, hw, hc]; show (0 : Int) ≤ (cN.val : Int) + ((0 : Nat) : Int) ∧ (cN.val : Int) + ((0 : Nat) : Int) < ((128 : Nat) : Int); omega
  unfold ScatterDims.resultIdx?
  rw [dif_pos hall]
  refine congrArg some (funext fun a => Fin.ext ?_)
  obtain rfl : a = 0 := Subsingleton.elim _ _
  show (scatter_S128_S1_S__n_0_0_0.start j idx (0 : Fin 1) + scatter_S128_S1_S__n_0_0_0.window j (0 : Fin 1)).toNat = cN.val
  rw [hs, hw, hc]; omega

theorem vecset_hit (x : S128.Idx → α) (idx : IVec S1 32) (upd : S_.Idx → α) (cB : BitVec 32) (hidx : ∀ i, idx i = cB)
    (cN : Fin 128) (hc : cB.toInt = (cN.val : Int)) :
    Host.scatter scatter_S128_S1_S__n_0_0_0 (fun _ b => b) x idx upd (ix1 cN) = upd ix0 :=
  scatter_set_hit _ x idx upd (ix1 cN) ix0 (vec_resultIdx idx cB hidx cN hc ix0) fun j _ => eq_ix0 j

theorem vecset_miss (x : S128.Idx → α) (idx : IVec S1 32) (upd : S_.Idx → α) (cB : BitVec 32) (hidx : ∀ i, idx i = cB)
    (cN : Fin 128) (hc : cB.toInt = (cN.val : Int)) (q : Fin 128) (hq : q ≠ cN) :
    Host.scatter scatter_S128_S1_S__n_0_0_0 (fun _ b => b) x idx upd (ix1 q) = x (ix1 q) := by
  refine scatter_set_miss _ x idx upd (ix1 q) fun j hj => ?_
  rw [vec_resultIdx idx cB hidx cN hc j] at hj
  exact hq (congrFun (Option.some.inj hj) (0 : Fin 1)).symm

end Cert.KernelIdeal.HeadParams

end
-- ==== Proof.KernelHeads.lean ====
/-
  The kernel's heads against the reference's.

  The padded head matrix holds the actor weights in column 0 and the critic weights in column 1, the padded bias the
  two biases in entries 0 and 1.  Column 0 of region 2's output at node n is therefore the sum over k of the rectified
  second layer at (n, k) times the actor weight at k, plus the actor bias, which is the reference's actor head; column
  1 is the critic head likewise.  The rectified second layer is the same array on both sides because every stage
  before it is.
-/
import proofs.«114901_j80796924772854_2_alg».proof.Proof.KernelFold
import proofs.«114901_j80796924772854_2_alg».proof.Proof.HeadParams

set_option maxRecDepth 16384

noncomputable section

open scoped BigOperators

namespace Cert.KernelIdeal.Fold

open Cert.KernelIdeal Cert.KernelIdeal.Gen Cert.ReferenceIdeal.Read
open Idealize.ShloMosaic Idealize.ShloMosaic.TcCoe Idealize.ShloMosaic.ValueIdx Idealize.ShloMosaic.StableHlo
open Idealize.SL.Sem

/-! ## The padded head matrix and bias -/

/-- Zeros with column 0 set to the actor weights, then column 1 to the critic weights. -/
def headW (wa wc : S256x1.Idx → EReal) : S256x128.Idx → EReal :=
  Host.scatter scatter_S256x128_S1_S256x1_01_n_1_0 (fun _ b => b)
    (Host.scatter scatter_S256x128_S1_S256x1_01_n_1_0 (fun _ b => b)
      (broadcastInDim S256x128 ![] bcast_S_S256x128 (constant (F := Ideal) S_ .f32 0x00000000#32))
      (broadcastInDim S1 ![] bcast_S_S1 (constantI S_ 32 0#32)) wa)
    (broadcastInDim S1 ![] bcast_S_S1 (constantI S_ 32 1#32)) wc

/-- Zeros with entry 0 set to the actor bias, then entry 1 to the critic bias. -/
def headB (ba bc : S1.Idx → EReal) : S128.Idx → EReal :=
  Host.scatter scatter_S128_S1_S__n_0_0_0 (fun _ b => b)
    (Host.scatter scatter_S128_S1_S__n_0_0_0 (fun _ b => b)
      (broadcastInDim S128 ![] bcast_S_S128 (constant (F := Ideal) S_ .f32 0x00000000#32))
      (broadcastInDim S1 ![] bcast_S_S1 (constantI S_ 32 0#32)) (shapeCast S_ ba shapeCasts_S1_S_))
    (broadcastInDim S1 ![] bcast_S_S1 (constantI S_ 32 1#32)) (shapeCast S_ bc shapeCasts_S1_S_)

theorem start_const (cB : BitVec 32) (i : S1.Idx) : broadcastInDim S1 ![] bcast_S_S1 (constantI S_ 32 cB) i = cB := rfl

theorem headW_col0 (wa wc : S256x1.Idx → EReal) (k : Fin 256) : headW wa wc (ix2 k (0 : Fin 128)) = wa (ix2 k (0 : Fin 1)) := by
  unfold headW
  rw [HeadParams.colset_miss _ _ wc (1#32) (start_const 1#32) (1 : Fin 128) (by decide) k (0 : Fin 128) (by decide)]
  exact HeadParams.colset_hit _ _ wa (0#32) (start_const 0#32) (0 : Fin 128) (by decide) k

theorem headW_col1 (wa wc : S256x1.Idx → EReal) (k : Fin 256) : headW wa wc (ix2 k (1 : Fin 128)) = wc (ix2 k (0 : Fin 1)) := by
  unfold headW
  exact HeadParams.colset_hit _ _ wc (1#32) (start_const 1#32) (1 : Fin 128) (by decide) k

theorem scalar_of_one (b : S1.Idx → EReal) : shapeCast S_ b shapeCasts_S1_S_ ix0 = b (ix1 (0 : Fin 1)) := by
  unfold shapeCast
  refine congrArg b ?_
  exact (eq_ix1 _).trans (congrArg ix1 (Subsingleton.elim _ _))

theorem headB_0 (ba bc : S1.Idx → EReal) : headB ba bc (ix1 (0 : Fin 128)) = ba (ix1 (0 : Fin 1)) := by
  unfold headB
  rw [HeadParams.vecset_miss _ _ _ (1#32) (start_const 1#32) (1 : Fin 128) (by decide) (0 : Fin 128) (by decide)]
  rw [HeadParams.vecset_hit _ _ _ (0#32) (start_const 0#32) (0 : Fin 128) (by decide)]
  exact scalar_of_one ba

theorem headB_1 (ba bc : S1.Idx → EReal) : headB ba bc (ix1 (1 : Fin 128)) = bc (ix1 (0 : Fin 1)) := by
  unfold headB
  rw [HeadParams.vecset_hit _ _ _ (1#32) (start_const 1#32) (1 : Fin 128) (by decide)]
  exact scalar_of_one bc

variable (m : (ℓ : Loc nD τ sig) → Buf (Elt Ideal) ℓ) (ρ : Dev nD → PrngReg) (c : Dev nD)

/-! ## What region 2 finds, and what it leaves -/

theorem W5_b2row : W5 m ρ c (Proc.devRef .tc main_v70) = shapeCast S1x256 (m ((c : Thread nD τ).loc main_arg5)) shapeCasts_S256_S1x256 := by
  have e : W5 m ρ c (Proc.devRef .tc main_v70) = shapeCast S1x256 (W4 m ρ c (Proc.devRef .tc main_arg5)) shapeCasts_S256_S1x256 := by
    show StableHlo.after hostOps2 (W4 m ρ c) (Proc.devRef .tc main_v70) = _
    after_results_simp <;> rfl
  rw [e, A4_5]

theorem W5_headW : W5 m ρ c (Proc.devRef .tc main_v62) = headW (m ((c : Thread nD τ).loc main_arg6)) (m ((c : Thread nD τ).loc main_arg8)) := by
  have e : W5 m ρ c (Proc.devRef .tc main_v62) = headW (W4 m ρ c (Proc.devRef .tc main_arg6)) (W4 m ρ c (Proc.devRef .tc main_arg8)) := by
    show StableHlo.after hostOps2 (W4 m ρ c) (Proc.devRef .tc main_v62) = _
    after_results_simp <;> rfl
  rw [e, A4_6, A4_8]

theorem W5_headB : W5 m ρ c (Proc.devRef .tc main_v71) = shapeCast S1x128 (headB (m ((c : Thread nD τ).loc main_arg7)) (m ((c : Thread nD τ).loc main_arg9))) shapeCasts_S128_S1x128 := by
  have e : W5 m ρ c (Proc.devRef .tc main_v71)
      = shapeCast S1x128 (headB (W4 m ρ c (Proc.devRef .tc main_arg7)) (W4 m ρ c (Proc.devRef .tc main_arg9))) shapeCasts_S128_S1x128 := by
    show StableHlo.after hostOps2 (W4 m ρ c) (Proc.devRef .tc main_v71) = _
    after_results_simp <;> rfl
  rw [e, A4_7, A4_9]

/-- Region 2's output array. -/
theorem W6_heads : W6 m ρ c (Proc.devRef .tc main_v72)
    = Reg2.heads (val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (shapeCast S1x256 (m ((c : Thread nD τ).loc main_arg5)) shapeCasts_S256_S1x256)
        (headW (m ((c : Thread nD τ).loc main_arg6)) (m ((c : Thread nD τ).loc main_arg8))) (shapeCast S1x128 (headB (m ((c : Thread nD τ).loc main_arg7)) (m ((c : Thread nD τ).loc main_arg9))) shapeCasts_S128_S1x128) := by
  refine ((W6_arr m ρ c 4).trans (Reg2.final (V5 m ρ) c)).trans ?_
  show Reg2.heads (W5 m ρ c (Proc.devRef .tc main_v57)) (W5 m ρ c (Proc.devRef .tc main_v70)) (W5 m ρ c (Proc.devRef .tc main_v62)) (W5 m ρ c (Proc.devRef .tc main_v71)) = _
  rw [W5_agg2, W5_b2row, W5_headW, W5_headB]

/-- Column q of region 2's output at node n, for q the actor's or the critic's column. -/
theorem heads_col (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (w : S256x128.Idx → EReal) (b : S128.Idx → EReal) (n : Fin 50000) (q : Fin 128) :
    Reg2.heads (val_main_v81 (F := Ideal) x0 x1 x2 x3 x4) (shapeCast S1x256 x5 shapeCasts_S256_S1x256) w (shapeCast S1x128 b shapeCasts_S128_S1x128) (ix2 n q)
      = (∑ k : Fin 256, val_main_v85 (F := Ideal) x0 x1 x2 x3 x4 x5 (ix2 n k) * w (ix2 k q)) + b (ix1 q) := by
  rw [Reg2.heads_apply, shapeCast_a_1a_apply]
  refine congrArg (· + b (ix1 q)) (Finset.sum_congr rfl fun k _ => ?_)
  rw [Cert.ReferenceIdeal.Layers.hidden2_apply, shapeCast_a_1a_apply]

/-! ## The two results -/

/-- The first result is the reference's actor head. -/
theorem result0 : W7 m ρ c (Proc.devRef .tc main_v74) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : W7 m ρ c (Proc.devRef .tc main_v74)
      = shapeCast S50000 (extractStridedSlice S50000x1 ![0, 0] (W6 m ρ c (Proc.devRef .tc main_v72)) slices_S50000x128_S50000x1_0_0) shapeCasts_S50000x1_S50000 := by
    show StableHlo.after hostOps3 (W6 m ρ c) (Proc.devRef .tc main_v74) = _
    after_results_simp <;> rfl
  rw [e, W6_heads]
  funext i
  obtain ⟨n, rfl⟩ : ∃ n : Fin 50000, i = ix1 n := ⟨i 0, eq_ix1 i⟩
  rw [Cert.ReferenceIdeal.Layers.actor_apply]
  rw [shapeCast_apply _ shapeCasts_S50000x1_S50000 (ix1 n) (ix2 n (0 : Fin 1)) (by
    rw [Shape.rowMajor_val_two, Shape.rowMajor_val_one]; show n.val * 1 + 0 = n.val; omega)]
  rw [extractStridedSlice_apply ![0, 0] _ slices_S50000x128_S50000x1_0_0 (ix2 n (0 : Fin 1)) (ix2 n (0 : Fin 128)) (fun a => match a with
    | ⟨0, _⟩ => by show n.val = 0 + n.val; omega
    | ⟨1, _⟩ => by show 0 = 0 + 0; rfl)]
  rw [heads_col, headB_0]
  simp only [headW_col0]

/-- The second result is the reference's critic head. -/
theorem result1 : W7 m ρ c (Proc.devRef .tc main_v75) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  have e : W7 m ρ c (Proc.devRef .tc main_v75)
      = extractStridedSlice S50000x1 ![0, 1] (W6 m ρ c (Proc.devRef .tc main_v72)) slices_S50000x128_S50000x1_0_1 := by
    show StableHlo.after hostOps3 (W6 m ρ c) (Proc.devRef .tc main_v75) = _
    after_results_simp <;> rfl
  rw [e, W6_heads]
  funext i
  obtain ⟨n, z, rfl⟩ : ∃ (n : Fin 50000) (z : Fin 1), i = ix2 n z := ⟨i 0, i 1, eq_ix2 i⟩
  have hz : z = 0 := Fin.ext (by have := z.isLt; omega)
  subst hz
  rw [Cert.ReferenceIdeal.Layers.critic_apply]
  rw [extractStridedSlice_apply ![0, 1] _ slices_S50000x128_S50000x1_0_1 (ix2 n (0 : Fin 1)) (ix2 n (1 : Fin 128)) (fun a => match a with
    | ⟨0, _⟩ => by show n.val = 0 + n.val; omega
    | ⟨1, _⟩ => by show 1 = 1 + 0; rfl)]
  rw [heads_col, headB_1]
  simp only [headW_col1]

end Cert.KernelIdeal.Fold

end
-- ==== Proof.lean ====
/-
  Two graph-convolution layers and two linear heads: the tiled kernel against the plain reference.

  Both programs take node features, an edge list and the layers' weights and biases.  A layer multiplies the node
  array by its weights, gathers the rows along the edges' sources (self-loops added), scales each by the symmetric
  degree normalisation, sums them at the targets, adds the bias and takes the maximum with zero; the heads are two
  one-column products of the second layer plus a bias each.

  The kernel does the three matrix products in three regions tiled over the node axis, with the previous layer's bias
  and rectifier fused in front of the second and third product, the two heads packed as columns 0 and 1 of one padded
  product, and the normalisation computed once; its changes of float format are the identity on the extended reals.
  The reference does each product whole and computes the normalisation once per layer.  On the extended reals every
  stage of the kernel is the same array as the reference's stage: the products entry by entry as sums over the
  contracted axis, the gather-scale-sum stages as the same expressions of equal arrays.  No law beyond reading each
  operation at an entry is used, so the finiteness of the inputs is not needed for the values; it is not used at all.
-/
import proofs.«114901_j80796924772854_2_alg».proof.Defs
import proofs.«114901_j80796924772854_2_alg».proof.Proof.Gen.Kernel
import proofs.«114901_j80796924772854_2_alg».proof.Proof.Gen.Kernel.Frame
import proofs.«114901_j80796924772854_2_alg».proof.Proof.Gen.KernelIdeal
import proofs.«114901_j80796924772854_2_alg».proof.Proof.Gen.KernelIdeal.Frame
import proofs.«114901_j80796924772854_2_alg».proof.Proof.Gen.ReferenceIdeal
import proofs.«114901_j80796924772854_2_alg».proof.Proof.Gen.ReferenceIdeal.Run
import proofs.«114901_j80796924772854_2_alg».proof.Proof.Gen.ReferenceIdeal.Read
import proofs.«114901_j80796924772854_2_alg».proof.Proof.Gen.Pre_finite_inputs
import proofs.«114901_j80796924772854_2_alg».proof.Proof.KernelRun
import proofs.«114901_j80796924772854_2_alg».proof.Proof.KernelHeads
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- The idealized kernel runs and leaves its arguments alone. -/
theorem frame_ki : Cert.frame_KernelIdeal := fun m ρ _ => Cert.KernelIdeal.Gen.frame m ρ

/-- The reference runs and leaves its arguments alone: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same two results: the kernel's are the
    reference's stages read at the kernel's arguments, the reference's the same stages at its own. -/
theorem algebraic : Cert.algebraic_KernelIdeal_ReferenceIdeal := by
  intro m ρ m' ρ' _ hagree
  refine ⟨fun c => Cert.KernelIdeal.Gen.W7 m ρ c (Proc.devRef .tc Cert.KernelIdeal.main_v74),
    fun c => Cert.KernelIdeal.Gen.W7 m ρ c (Proc.devRef .tc Cert.KernelIdeal.main_v75),
    Cert.KernelIdeal.Results.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v90_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1]
    exact (Cert.KernelIdeal.Fold.result0 m ρ c).symm
  · rw [Cert.ReferenceIdeal.Read.val_main_v94_eq, (hagree c).1, (hagree c).2.1, (hagree c).2.2.1, (hagree c).2.2.2.1,
      (hagree c).2.2.2.2.1, (hagree c).2.2.2.2.2.1, (hagree c).2.2.2.2.2.2.2.2.1, (hagree c).2.2.2.2.2.2.2.2.2]
    exact (Cert.KernelIdeal.Fold.result1 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
